-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S1200000 : Shape := ⟨1, ![1200000]⟩
abbrev S2x600000 : Shape := ⟨2, ![2, 600000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S200000x128 .f32) (main_arg1 : FVec F S600000x128 .f32) (main_arg2 : FVec F S384x128 .f32) (main_arg3 : FVec F S128 .f32) (main_arg4 : FVec F S128x128 .f32) (main_arg5 : FVec F S128 .f32) (main_arg6 : IVec S1200000 32) (main_arg7 : IVec S1200000 32) (main_arg8 : IVec S2x600000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S200000x128 : Shape := ⟨2, ![200000, 128]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S1200000 : Shape := ⟨1, ![1200000]⟩
abbrev S2x600000 : Shape := ⟨2, ![2, 600000]⟩
abbrev S_ : Shape := ⟨0, ![]⟩
abbrev S1200000x1 : Shape := ⟨2, ![1200000, 1]⟩
abbrev S1200000x128 : Shape := ⟨2, ![1200000, 128]⟩
abbrev S400000x128 : Shape := ⟨2, ![400000, 128]⟩
abbrev S1x600000 : Shape := ⟨2, ![1, 600000]⟩
abbrev S600000 : Shape := ⟨1, ![600000]⟩
abbrev S600000x1 : Shape := ⟨2, ![600000, 1]⟩
abbrev S602112x128 : Shape := ⟨2, ![602112, 128]⟩
abbrev S1x128 : Shape := ⟨2, ![1, 128]⟩
abbrev S4096x128 : Shape := ⟨2, ![4096, 128]⟩

abbrev nBuf : Space → Nat
  | .hbm => 72
  | .vmem => 14
  | .smem => 0
  | _ => 0

abbrev bufTy : (tb : Table) → Fin (tcTables nBuf tb) → BufTy
  | .hbm, ⟨0, _⟩ => ⟨S200000x128, .f32⟩
  | .hbm, ⟨1, _⟩ => ⟨S600000x128, .f32⟩
  | .hbm, ⟨2, _⟩ => ⟨S384x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1200000, .i32⟩
  | .hbm, ⟨7, _⟩ => ⟨S1200000, .i32⟩
  | .hbm, ⟨8, _⟩ => ⟨S2x600000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x128, .f32⟩
  | .hbm, ⟨18, _⟩ => ⟨S_, .f32⟩
  | .hbm, ⟨19, _⟩ => ⟨S400000x128, .f32⟩
  | .hbm, ⟨20, _⟩ => ⟨S1200000x1, .i32⟩
  | .hbm, ⟨21, _⟩ => ⟨S400000x128, .f32⟩
  | .hbm, ⟨22, _⟩ => ⟨S1x600000, .i32⟩
  | .hbm, ⟨23, _⟩ => ⟨S600000, .i32⟩
  | .hbm, ⟨24, _⟩ => ⟨S1x600000, .i32⟩
  | .hbm, ⟨25, _⟩ => ⟨S600000, .i32⟩
  | .hbm, ⟨26, _⟩ => ⟨S600000, .i1⟩
  | .hbm, ⟨27, _⟩ => ⟨S600000x1, .i1⟩
  | .hbm, ⟨28, _⟩ => ⟨S600000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x128, .bf16⟩
  | .hbm, ⟨50, _⟩ => ⟨S_, .i32⟩
  | .hbm, ⟨51, _⟩ => ⟨S_, .bf16⟩
  | .hbm, ⟨52, _⟩ => ⟨S602112x128, .bf16⟩
  | .hbm, ⟨53, _⟩ => ⟨S600000x128, .bf16⟩
  | .hbm, ⟨54, _⟩ => ⟨S_, .i32⟩
  | .hbm, ⟨55, _⟩ => ⟨S_, .bf16⟩
  | .hbm, ⟨56, _⟩ => ⟨S602112x128, .bf16⟩
  | .hbm, ⟨57, _⟩ => ⟨S600000x128, .bf16⟩
  | .hbm, ⟨58, _⟩ => ⟨S_, .i32⟩
  | .hbm, ⟨59, _⟩ => ⟨S_, .bf16⟩
  | .hbm, ⟨60, _⟩ => ⟨S602112x128, .bf16⟩
  | .hbm, ⟨61, _⟩ => ⟨S128x128, .f32⟩
  | .hbm, ⟨62, _⟩ => ⟨S128x128, .bf16⟩
  | .hbm, ⟨63, _⟩ => ⟨S128x128, .f32⟩
  | .hbm, ⟨64, _⟩ => ⟨S128x128, .bf16⟩
  | .hbm, ⟨65, _⟩ => ⟨S128x128, .f32⟩
  | .hbm, ⟨66, _⟩ => ⟨S128x128, .bf16⟩
  | .hbm, ⟨67, _⟩ => ⟨S128x128, .bf16⟩
  | .hbm, ⟨68, _⟩ => ⟨S1x128, .f32⟩
  | .hbm, ⟨69, _⟩ => ⟨S1x128, .f32⟩
  | .hbm, ⟨70, _⟩ => ⟨S602112x128, .f32⟩
  | .hbm, ⟨71, _⟩ => ⟨S600000x128, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S1x128, .f32⟩
  | .local _ .vmem, ⟨10, _⟩ => ⟨S128x128, .bf16⟩
  | .local _ .vmem, ⟨11, _⟩ => ⟨S1x128, .f32⟩
  | .local _ .vmem, ⟨12, _⟩ => ⟨S4096x128, .f32⟩
  | .local _ .vmem, ⟨13, _⟩ => ⟨S4096x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_5 : Ref sig .tc := ⟨.hbm, 50, rfl⟩
abbrev main_call0_v0 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_c_7 : Ref sig .tc := ⟨.hbm, 58, rfl⟩
abbrev main_call2_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![147], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S400000x128 : S_.BroadcastsInDim S400000x128 (![] : Fin 0 → Fin S400000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bitsLt_bf16_f32 : FTy.bits .bf16 < FTy.bits .f32
  pads_S600000x128_S602112x128_021120_000 : S600000x128.Pads (![0, 0] : Fin 2 → Nat) ![2112, 0] ![0, 0] S602112x128
  h_S_ : 0 < S_.numel
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  slices_S602112x128_S600000x128_0_0 : S602112x128.Slices ![0, 0] S600000x128
  gather_S200000x128_S1200000x1_S1200000x128_1_0_n_n_0_1_1128_wf : GatherDims.WF S200000x128 S1200000x1 S1200000x128 [1] [0] [] [0] [] 1 ![1, 128]
  scatter_S400000x128_S1200000x1_S1200000x128_1_0_0_1_wf : ScatterDims.WF S400000x128 S1200000x1 S1200000x128 [1] [0] [0] 1
  gather_S400000x128_S600000x1_S600000x128_1_0_n_n_0_1_1128_wf : GatherDims.WF S400000x128 S600000x1 S600000x128 [1] [0] [] [0] [] 1 ![1, 128]
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S602112x128.size a
  hwx0_0 : ∀ i : grid0.Coords, EltTy.bits .bf16 = 32 ∨ (Rect.block (s := S602112x128) S4096x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S602112x128.size a
  hwx0_1 : ∀ i : grid0.Coords, EltTy.bits .bf16 = 32 ∨ (Rect.block (s := S602112x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S602112x128.size a
  hwx0_2 : ∀ i : grid0.Coords, EltTy.bits .bf16 = 32 ∨ (Rect.block (s := S602112x128) S4096x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x128.size a ≤ S602112x128.size a
  hwx0_9 : ∀ i : grid0.Coords, EltTy.bits .f32 = 32 ∨ (Rect.block (s := S602112x128) S4096x128.size (cc0_transform_9 i) (hinb0_9 i)).WholeWords (EltTy.packing .f32)

variable [Facts₀]

def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S400000x128_S1200000x1_S1200000x128_1_0_0_1 : ScatterDims S400000x128 S1200000x1 S1200000x128 where
  updateWindowDims := [1]
  insertedWindowDims := [0]
  scatterDimsToOperandDims := [0]
  indexVectorDim := 1
  wf := scatter_S400000x128_S1200000x1_S1200000x128_1_0_0_1_wf
def gather_S400000x128_S600000x1_S600000x128_1_0_n_n_0_1_1128 : GatherDims S400000x128 S600000x1 S600000x128 where
  offsetDims := [1]
  collapsedSliceDims := [0]
  operandBatchingDims := []
  startIndicesBatchingDims := []
  startIndexMap := [0]
  indexVectorDim := 1
  sliceSizes := ![1, 128]
  wf := gather_S400000x128_S600000x1_S600000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_v34) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v45) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S4096x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x128 : Shape := ⟨2, ![200000, 128]⟩
abbrev S600000x128 : Shape := ⟨2, ![600000, 128]⟩
abbrev S384x128 : Shape := ⟨2, ![384, 128]⟩
abbrev S128 : Shape := ⟨1, ![128]⟩
abbrev S128x128 : Shape := ⟨2, ![128, 128]⟩
abbrev S1200000 : Shape := ⟨1, ![1200000]⟩
abbrev S2x600000 : Shape := ⟨2, ![2, 600000]⟩
abbrev S_ : Shape := ⟨0, ![]⟩
abbrev S1200000x1 : Shape := ⟨2, ![1200000, 1]⟩
abbrev S1200000x128 : Shape := ⟨2, ![1200000, 128]⟩
abbrev S400000x128 : Shape := ⟨2, ![400000, 128]⟩
abbrev S1x600000 : Shape := ⟨2, ![1, 600000]⟩
abbrev S600000 : Shape := ⟨1, ![600000]⟩
abbrev S600000x1 : Shape := ⟨2, ![600000, 1]⟩
abbrev S600000x384 : Shape := ⟨2, ![600000, 384]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S600000x128, .f32⟩
  | .hbm, ⟨2, _⟩ => ⟨S384x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1200000, .i32⟩
  | .hbm, ⟨7, _⟩ => ⟨S1200000, .i32⟩
  | .hbm, ⟨8, _⟩ => ⟨S2x600000, .i32⟩
  | .hbm, ⟨9, _⟩ => ⟨S_, .i32⟩
  | .hbm, ⟨10, _⟩ => ⟨S1200000, .i32⟩
  | .hbm, ⟨11, _⟩ => ⟨S1200000, .i1⟩
  | .hbm, ⟨12, _⟩ => ⟨S_, .i32⟩
  | .hbm, ⟨13, _⟩ => ⟨S1200000, .i32⟩
  | .hbm, ⟨14, _⟩ => ⟨S1200000, .i32⟩
  | .hbm, ⟨15, _⟩ => ⟨S1200000, .i32⟩
  | .hbm, ⟨16, _⟩ => ⟨S1200000x1, .i32⟩
  | .hbm, ⟨17, _⟩ => ⟨S1200000x128, .f32⟩
  | .hbm, ⟨18, _⟩ => ⟨S_, .f32⟩
  | .hbm, ⟨19, _⟩ => ⟨S400000x128, .f32⟩
  | .hbm, ⟨20, _⟩ => ⟨S1200000x1, .i32⟩
  | .hbm, ⟨21, _⟩ => ⟨S400000x128, .f32⟩
  | .hbm, ⟨22, _⟩ => ⟨S1x600000, .i32⟩
  | .hbm, ⟨23, _⟩ => ⟨S600000, .i32⟩
  | .hbm, ⟨24, _⟩ => ⟨S1x600000, .i32⟩
  | .hbm, ⟨25, _⟩ => ⟨S600000, .i32⟩
  | .hbm, ⟨26, _⟩ => ⟨S600000, .i1⟩
  | .hbm, ⟨27, _⟩ => ⟨S600000x1, .i1⟩
  | .hbm, ⟨28, _⟩ => ⟨S600000x1, .f32⟩
  | .hbm, ⟨29, _⟩ => ⟨S_, .i32⟩
  | .hbm, ⟨30, _⟩ => ⟨S600000, .i32⟩
  | .hbm, ⟨31, _⟩ => ⟨S600000, .i1⟩
  | .hbm, ⟨32, _⟩ => ⟨S_, .i32⟩
  | .hbm, ⟨33, _⟩ => ⟨S600000, .i32⟩
  | .hbm, ⟨34, _⟩ => ⟨S600000, .i32⟩
  | .hbm, ⟨35, _⟩ => ⟨S600000, .i32⟩
  | .hbm, ⟨36, _⟩ => ⟨S600000x1, .i32⟩
  | .hbm, ⟨37, _⟩ => ⟨S600000x128, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S600000x128, .f32⟩
  | .hbm, ⟨48, _⟩ => ⟨S600000x128, .f32⟩
  | .hbm, ⟨49, _⟩ => ⟨S600000x384, .f32⟩
  | .hbm, ⟨50, _⟩ => ⟨S600000x128, .f32⟩
  | .hbm, ⟨51, _⟩ => ⟨S1x128, .f32⟩
  | .hbm, ⟨52, _⟩ => ⟨S600000x128, .f32⟩
  | .hbm, ⟨53, _⟩ => ⟨S600000x128, .f32⟩
  | .hbm, ⟨54, _⟩ => ⟨S_, .f32⟩
  | .hbm, ⟨55, _⟩ => ⟨S600000x128, .f32⟩
  | .hbm, ⟨56, _⟩ => ⟨S600000x128, .f32⟩
  | .hbm, ⟨57, _⟩ => ⟨S600000x128, .f32⟩
  | .hbm, ⟨58, _⟩ => ⟨S1x128, .f32⟩
  | .hbm, ⟨59, _⟩ => ⟨S600000x128, .f32⟩
  | .hbm, ⟨60, _⟩ => ⟨S600000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_call0_cst : Ref sig .tc := ⟨.hbm, 54, rfl⟩
abbrev main_call0_v0 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]

class Facts₀ : Prop where
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S400000x128 : S_.BroadcastsInDim S400000x128 (![] : Fin 0 → Fin S400000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  concatenates_S600000x128_S600000x128_S600000x128_S600000x384_d1 : Shape.Concatenates [S600000x128, S600000x128, S600000x128] S600000x384 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  gather_S200000x128_S1200000x1_S1200000x128_1_0_n_n_0_1_1128_wf : GatherDims.WF S200000x128 S1200000x1 S1200000x128 [1] [0] [] [0] [] 1 ![1, 128]
  scatter_S400000x128_S1200000x1_S1200000x128_1_0_0_1_wf : ScatterDims.WF S400000x128 S1200000x1 S1200000x128 [1] [0] [0] 1
  gather_S400000x128_S600000x1_S600000x128_1_0_n_n_0_1_1128_wf : GatherDims.WF S400000x128 S600000x1 S600000x128 [1] [0] [] [0] [] 1 ![1, 128]
  dot_S600000x384_S384x128_S600000x128_1_0_0_1_n_n_wf : DotDims.WF S600000x384 S384x128 S600000x128 [1] [0] [0] [1] [] []
  dot_S600000x128_S128x128_S600000x128_1_0_0_1_n_n_wf : DotDims.WF S600000x128 S128x128 S600000x128 [1] [0] [0] [1] [] []

variable [Facts₀]

def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S400000x128_S1200000x1_S1200000x128_1_0_0_1 : ScatterDims S400000x128 S1200000x1 S1200000x128 where
  updateWindowDims := [1]
  insertedWindowDims := [0]
  scatterDimsToOperandDims := [0]
  indexVectorDim := 1
  wf := scatter_S400000x128_S1200000x1_S1200000x128_1_0_0_1_wf
def gather_S400000x128_S600000x1_S600000x128_1_0_n_n_0_1_1128 : GatherDims S400000x128 S600000x1 S600000x128 where
  offsetDims := [1]
  collapsedSliceDims := [0]
  operandBatchingDims := []
  startIndicesBatchingDims := []
  startIndexMap := [0]
  indexVectorDim := 1
  sliceSizes := ![1, 128]
  wf := gather_S400000x128_S600000x1_S600000x128_1_0_n_n_0_1_1128_wf
def dot_S600000x384_S384x128_S600000x128_1_0_0_1_n_n : DotDims S600000x384 S384x128 S600000x128 where
  lhsContracting := [1]
  rhsContracting := [0]
  lhsNonContracting := [0]
  rhsNonContracting := [1]
  lhsBatch := []
  rhsBatch := []
  wf := dot_S600000x384_S384x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.Spec.lean ====
/-
  One edge of the network, over the extended reals.

  An edge carries three feature rows of 128 entries — the sender cell's, the receiver cell's and the edge's own.  The
  first layer multiplies their concatenation, a row of 384 entries, by a 384 × 128 matrix, adds a bias and clamps at
  zero from below; the second layer multiplies the 128 hidden values by a 128 × 128 matrix and adds a bias.

  The product of the concatenated row with the matrix can be taken in one sum over the 384 rows of the matrix, or as
  three sums over its three blocks of 128 rows, one per feature row, added up.  The two agree in any commutative
  monoid: a sum over 384 = 128 + 128 + 128 indices is the sum of the sums over the three stretches.  Addition of
  extended reals is commutative and associative, so nothing about finiteness is needed.
-/
import Idealize.ShloMosaic.PureOps.Ideal.Laws

noncomputable section

open scoped BigOperators

namespace Cert.EdgeNet

open Idealize.ShloMosaic

/-- Row `a` of the first block of 128 rows of a 384-row matrix. -/
abbrev blk0 (a : Fin 128) : Fin 384 := ⟨a.val, by omega⟩
/-- Row `a` of the second block. -/
abbrev blk1 (a : Fin 128) : Fin 384 := ⟨128 + a.val, by omega⟩
/-- Row `a` of the third block. -/
abbrev blk2 (a : Fin 128) : Fin 384 := ⟨256 + a.val, by omega⟩

/-- A sum over 384 indices is the sum over the three blocks of 128, added left to right. -/
theorem sum_blocks {M : Type*} [AddCommMonoid M] (f : Fin 384 → M) :
    ∑ a : Fin 384, f a = (∑ a : Fin 128, f (blk0 a) + ∑ a : Fin 128, f (blk1 a)) + ∑ a : Fin 128, f (blk2 a) := by
  have h384 : 128 + 128 + 128 = 384 := by norm_num
  rw [← Fin.sum_congr' f h384, Fin.sum_univ_add, Fin.sum_univ_add]
  rfl

/-- The zero the hidden layer is clamped at: the all-zero word read as a number. -/
abbrev zeroWord : EReal := Ideal.ofBits .f32 0x00000000#32

/-- Output `j` of one edge, the first layer taken block by block: `s`, `r`, `e` the three feature rows, `Wa`, `Wb`,
    `Wc` the three blocks of the first matrix. -/
def edgeOut3 (s r e : Fin 128 → EReal) (Wa Wb Wc : Fin 128 → Fin 128 → EReal) (b1 : Fin 128 → EReal)
    (W2 : Fin 128 → Fin 128 → EReal) (b2 : Fin 128 → EReal) (j : Fin 128) : EReal :=
  (∑ k : Fin 128, max (((∑ a : Fin 128, s a * Wa a k + ∑ a : Fin 128, r a * Wb a k) + ∑ a : Fin 128, e a * Wc a k) + b1 k)
    zeroWord * W2 k j) + b2 j

/-- Output `j` of one edge, the first layer taken as one product with the concatenated row `c`. -/
def edgeOutCat (c : Fin 384 → EReal) (W1 : Fin 384 → Fin 128 → EReal) (b1 : Fin 128 → EReal)
    (W2 : Fin 128 → Fin 128 → EReal) (b2 : Fin 128 → EReal) (j : Fin 128) : EReal :=
  (∑ k : Fin 128, max ((∑ a : Fin 384, c a * W1 a k) + b1 k) zeroWord * W2 k j) + b2 j

/-- The two readings of the first layer agree. -/
theorem edgeOutCat_eq (c : Fin 384 → EReal) (W1 : Fin 384 → Fin 128 → EReal) (b1 : Fin 128 → EReal)
    (W2 : Fin 128 → Fin 128 → EReal) (b2 : Fin 128 → EReal) (j : Fin 128) :
    edgeOutCat c W1 b1 W2 b2 j
      = edgeOut3 (fun a => c (blk0 a)) (fun a => c (blk1 a)) (fun a => c (blk2 a))
          (fun a k => W1 (blk0 a) k) (fun a k => W1 (blk1 a) k) (fun a k => W1 (blk2 a) k) b1 W2 b2 j := by
  unfold edgeOutCat edgeOut3
  refine congrArg (· + b2 j) (Finset.sum_congr rfl fun k _ => ?_)
  rw [sum_blocks fun a : Fin 384 => c a * W1 a k]

end Cert.EdgeNet

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.Body.lean ====
/-
  What the kernel's body computes at one entry of its output block.

  The body loads three blocks of 4096 feature rows (sender, receiver, edge), the three 128 × 128 blocks of the first
  matrix, the first bias as a one-row array, the second matrix and the second bias, and stores one block of 4096 output
  rows.  Read at row p and column j over the extended reals — where a change of float format is the identity, a
  matrix product accumulated into zero is the plain sum of products, and a one-row array broadcast down the rows is that
  row — the stored value is the edge's output: the three block products added left to right, the bias added, the
  result clamped at zero from below, multiplied by the second matrix, and the second bias added.
-/
import proofs.«151119_j17703855194353_1_alg».proof.Proof.Gen.KernelIdeal.Skeleton
import proofs.«151119_j17703855194353_1_alg».proof.Proof.Spec
import proofs.«151119_j17703855194353_1_alg».proof.Proof.LibPlainDot
import Idealize.ShloMosaic.Lib.ValueIdx
import Idealize.ShloMosaic.Lib.ValueLayout
import Idealize.ShloMosaic.Lib.Pipeline.Value

noncomputable section

open scoped BigOperators

namespace Cert.EdgeNet.Body

open Cert.KernelIdeal Cert.KernelIdeal.Gen Idealize.ShloMosaic Idealize.ShloMosaic.ValueIdx

/-- The body's matrix products are plain ones: 4096 × 128 by 128 × 128, no batch axis. -/
theorem dot_plain : dot_S4096x128_S128x128_S4096x128_1_0_0_1_n_n = DotDims.plain 4096 128 128 := rfl

/-- A block of rows times a 128 × 128 matrix, accumulated into zero, at entry (p, j): the sum over the 128 columns of
    the row. -/
theorem mm_apply {φ₁ φ₂ : FTy} (l : FVec Ideal S4096x128 φ₁) (r : FVec Ideal S128x128 φ₂) (p : Fin 4096) (j : Fin 128) :
    matmul dot_S4096x128_S128x128_S4096x128_1_0_0_1_n_n none l r (constant S4096x128 .f32 0x00000000#32) (ix2 p j)
      = ∑ k : Fin 128, l (ix2 p k) * r (ix2 k j) :=
  Cert.PlainDot.matmul_zero_apply _ dot_plain none l r p j

/-- Output j of row p of the stored block. -/
theorem pay_apply (x0 x1 x2 : Vec Ideal S4096x128 .bf16) (w1a w1b w1c : Vec Ideal S128x128 .bf16) (b1 : Vec Ideal S1x128 .f32)
    (w2 : Vec Ideal S128x128 .bf16) (b2 : Vec Ideal S1x128 .f32) (p : Fin 4096) (j : Fin 128) :
    k0_pay1 (F := Ideal) x0 x1 x2 w1a w1b w1c b1 w2 b2 (ix2 p j)
      = Cert.EdgeNet.edgeOut3 (fun a => x0 (ix2 p a)) (fun a => x1 (ix2 p a)) (fun a => x2 (ix2 p a))
          (fun a k => w1a (ix2 a k)) (fun a k => w1b (ix2 a k)) (fun a k => w1c (ix2 a k))
          (fun k => b1 (ix2 (0 : Fin 1) k)) (fun k j => w2 (ix2 k j)) (fun j => b2 (ix2 (0 : Fin 1) j)) j := by
  unfold k0_pay1
  simp only [shapeCast_self]
  rw [addf_apply, mm_apply, broadcastTo_1b_ab_apply]
  unfold Cert.EdgeNet.edgeOut3
  refine congrArg (· + b2 (ix2 (0 : Fin 1) j)) (Finset.sum_congr rfl fun k _ => ?_)
  rw [truncf_apply, maximumf_apply, addf_apply, addf_apply, addf_apply, mm_apply, mm_apply, mm_apply,
    broadcastTo_1b_ab_apply, broadcast_apply]
  rfl

end Cert.EdgeNet.Body

end
-- ==== Proof.Blocks.lean ====
/-
  From blocks to the array: what the padded output array holds after all grid points.

  The grid has 147 points.  Point t reads rows 4096·t … 4096·t + 4095 of the three padded feature arrays and the whole
  of each weight and bias array, and writes rows 4096·t … 4096·t + 4095 of the output array.  So row P of the output
  is the edge's output computed from row P of the three feature arrays; the 147 blocks of 4096 rows tile the 602112
  rows, so every row is written by exactly the point P / 4096.
-/
import proofs.«151119_j17703855194353_1_alg».proof.Proof.Gen.KernelIdeal.Frame
import proofs.«151119_j17703855194353_1_alg».proof.Proof.Spec
import proofs.«151119_j17703855194353_1_alg».proof.Proof.Body
import Idealize.ShloMosaic.Lib.Pipeline.Value
import Idealize.ShloMosaic.Lib.ValueIdx

noncomputable section

open scoped BigOperators

namespace Cert.EdgeNet.Blocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 147 points: the three feature windows and the output window are at block
    (t, 0) at point t; the six weight and bias windows stay at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

/-- Row p of the sender block at point t is row 4096·t + p of the padded sender array. -/
theorem rows0 (c : Dev nD) (t : Fin cfg0.N) (p : Fin 4096) (a : Fin 128) (P : Fin 602112) (hP : P.val = 4096 * t.val + p.val) :
    (iblk m c 0 t : Vec Ideal S4096x128 .bf16) (ix2 p a) = V m c main_v34 (ix2 P a) := by
  obtain ⟨⟨e0, e1⟩, -⟩ := idx_facts t
  unfold iblk
  rw [View.read_apply]
  show V m c main_v34 _ = V m c main_v34 _
  refine congrArg (V m c main_v34) (funext fun ax => Fin.ext ?_)
  match ax with
  | ⟨0, _⟩ => show win0_0.index t (0 : Fin 2) * 4096 + 1 * p.val = P.val; rw [e0, hP]; omega
  | ⟨1, _⟩ => show win0_0.index t (1 : Fin 2) * 128 + 1 * a.val = a.val; rw [e1]; omega

/-- Row p of the receiver block at point t is row 4096·t + p of the padded receiver array. -/
theorem rows1 (c : Dev nD) (t : Fin cfg0.N) (p : Fin 4096) (a : Fin 128) (P : Fin 602112) (hP : P.val = 4096 * t.val + p.val) :
    (iblk m c 1 t : Vec Ideal S4096x128 .bf16) (ix2 p a) = V m c main_v36 (ix2 P a) := by
  obtain ⟨-, ⟨e0, e1⟩, -⟩ := idx_facts t
  unfold iblk
  rw [View.read_apply]
  show V m c main_v36 _ = V m c main_v36 _
  refine congrArg (V m c main_v36) (funext fun ax => Fin.ext ?_)
  match ax with
  | ⟨0, _⟩ => show win0_1.index t (0 : Fin 2) * 4096 + 1 * p.val = P.val; rw [e0, hP]; omega
  | ⟨1, _⟩ => show win0_1.index t (1 : Fin 2) * 128 + 1 * a.val = a.val; rw [e1]; omega

/-- Row p of the edge block at point t is row 4096·t + p of the padded edge array. -/
theorem rows2 (c : Dev nD) (t : Fin cfg0.N) (p : Fin 4096) (a : Fin 128) (P : Fin 602112) (hP : P.val = 4096 * t.val + p.val) :
    (iblk m c 2 t : Vec Ideal S4096x128 .bf16) (ix2 p a) = V m c main_v38 (ix2 P a) := by
  obtain ⟨-, -, ⟨e0, e1⟩, -⟩ := idx_facts t
  unfold iblk
  rw [View.read_apply]
  show V m c main_v38 _ = V m c main_v38 _
  refine congrArg (V m c main_v38) (funext fun ax => Fin.ext ?_)
  match ax with
  | ⟨0, _⟩ => show win0_2.index t (0 : Fin 2) * 4096 + 1 * p.val = P.val; rw [e0, hP]; omega
  | ⟨1, _⟩ => show win0_2.index t (1 : Fin 2) * 128 + 1 * a.val = a.val; rw [e1]; omega

/-- The first matrix's first block's window's block is the whole array at every point. -/
theorem whole3 (c : Dev nD) (t : Fin cfg0.N) (a k : Fin 128) :
    (iblk m c 3 t : Vec Ideal S128x128 .bf16) (ix2 a k) = V m c main_v40 (ix2 a k) := by
  obtain ⟨-, -, -, ⟨e0, e1⟩, -⟩ := idx_facts t
  unfold iblk
  rw [View.read_apply]
  show V m c main_v40 _ = V m c main_v40 _
  refine congrArg (V m c main_v40) (funext fun ax => Fin.ext ?_)
  match ax with
  | ⟨0, _⟩ => show win0_3.index t (0 : Fin 2) * 128 + 1 * a.val = a.val; rw [e0]; omega
  | ⟨1, _⟩ => show win0_3.index t (1 : Fin 2) * 128 + 1 * k.val = k.val; rw [e1]; omega

/-- The first matrix's second block's window's block is the whole array at every point. -/
theorem whole4 (c : Dev nD) (t : Fin cfg0.N) (a k : Fin 128) :
    (iblk m c 4 t : Vec Ideal S128x128 .bf16) (ix2 a k) = V m c main_v42 (ix2 a k) := by
  obtain ⟨-, -, -, -, ⟨e0, e1⟩, -⟩ := idx_facts t
  unfold iblk
  rw [View.read_apply]
  show V m c main_v42 _ = V m c main_v42 _
  refine congrArg (V m c main_v42) (funext fun ax => Fin.ext ?_)
  match ax with
  | ⟨0, _⟩ => show win0_4.index t (0 : Fin 2) * 128 + 1 * a.val = a.val; rw [e0]; omega
  | ⟨1, _⟩ => show win0_4.index t (1 : Fin 2) * 128 + 1 * k.val = k.val; rw [e1]; omega

/-- The first matrix's third block's window's block is the whole array at every point. -/
theorem whole5 (c : Dev nD) (t : Fin cfg0.N) (a k : Fin 128) :
    (iblk m c 5 t : Vec Ideal S128x128 .bf16) (ix2 a k) = V m c main_v44 (ix2 a k) := by
  obtain ⟨-, -, -, -, -, ⟨e0, e1⟩, -⟩ := idx_facts t
  unfold iblk
  rw [View.read_apply]
  show V m c main_v44 _ = V m c main_v44 _
  refine congrArg (V m c main_v44) (funext fun ax => Fin.ext ?_)
  match ax with
  | ⟨0, _⟩ => show win0_5.index t (0 : Fin 2) * 128 + 1 * a.val = a.val; rw [e0]; omega
  | ⟨1, _⟩ => show win0_5.index t (1 : Fin 2) * 128 + 1 * k.val = k.val; rw [e1]; omega

/-- The first bias's window's block is the whole one-row array at every point. -/
theorem whole6 (c : Dev nD) (t : Fin cfg0.N) (u : Fin 1) (k : Fin 128) :
    (iblk m c 6 t : Vec Ideal S1x128 .f32) (ix2 u k) = V m c main_v46 (ix2 u k) := by
  obtain ⟨-, -, -, -, -, -, ⟨e0, e1⟩, -⟩ := idx_facts t
  unfold iblk
  rw [View.read_apply]
  show V m c main_v46 _ = V m c main_v46 _
  refine congrArg (V m c main_v46) (funext fun ax => Fin.ext ?_)
  match ax with
  | ⟨0, _⟩ => show win0_6.index t (0 : Fin 2) * 1 + 1 * u.val = u.val; rw [e0]; omega
  | ⟨1, _⟩ => show win0_6.index t (1 : Fin 2) * 128 + 1 * k.val = k.val; rw [e1]; omega

/-- The second matrix's window's block is the whole array at every point. -/
theorem whole7 (c : Dev nD) (t : Fin cfg0.N) (a k : Fin 128) :
    (iblk m c 7 t : Vec Ideal S128x128 .bf16) (ix2 a k) = V m c main_v45 (ix2 a k) := by
  obtain ⟨-, -, -, -, -, -, -, ⟨e0, e1⟩, -⟩ := idx_facts t
  unfold iblk
  rw [View.read_apply]
  show V m c main_v45 _ = V m c main_v45 _
  refine congrArg (V m c main_v45) (funext fun ax => Fin.ext ?_)
  match ax with
  | ⟨0, _⟩ => show win0_7.index t (0 : Fin 2) * 128 + 1 * a.val = a.val; rw [e0]; omega
  | ⟨1, _⟩ => show win0_7.index t (1 : Fin 2) * 128 + 1 * k.val = k.val; rw [e1]; omega

/-- The second bias's window's block is the whole one-row array at every point. -/
theorem whole8 (c : Dev nD) (t : Fin cfg0.N) (u : Fin 1) (k : Fin 128) :
    (iblk m c 8 t : Vec Ideal S1x128 .f32) (ix2 u k) = V m c main_v47 (ix2 u k) := by
  obtain ⟨-, -, -, -, -, -, -, -, ⟨e0, e1⟩, -⟩ := idx_facts t
  unfold iblk
  rw [View.read_apply]
  show V m c main_v47 _ = V m c main_v47 _
  refine congrArg (V m c main_v47) (funext fun ax => Fin.ext ?_)
  match ax with
  | ⟨0, _⟩ => show win0_8.index t (0 : Fin 2) * 1 + 1 * u.val = u.val; rw [e0]; omega
  | ⟨1, _⟩ => show win0_8.index t (1 : Fin 2) * 128 + 1 * k.val = k.val; rw [e1]; omega

/-! ## The whole padded output -/

/-- Row P, column j of the padded output: the edge's output from row P of the three padded feature arrays and the
    weight arrays, all as the region finds them. -/
def rowOut (c : Dev nD) (P : Fin 602112) (j : Fin 128) : EReal :=
  Cert.EdgeNet.edgeOut3 (fun a => V m c main_v34 (ix2 P a)) (fun a => V m c main_v36 (ix2 P a)) (fun a => V m c main_v38 (ix2 P a))
    (fun a k => V m c main_v40 (ix2 a k)) (fun a k => V m c main_v42 (ix2 a k)) (fun a k => V m c main_v44 (ix2 a k))
    (fun k => V m c main_v46 (ix2 (0 : Fin 1) k)) (fun k j => V m c main_v45 (ix2 k j)) (fun j => V m c main_v47 (ix2 (0 : Fin 1) j)) j

/-- The padded output array as one function of its index. -/
def padded (c : Dev nD) : S602112x128.Idx → Elt Ideal .f32 :=
  fun i => rowOut m c ⟨(i 0).val, (i 0).isLt⟩ ⟨(i 1).val, (i 1).isLt⟩

theorem padded_apply (c : Dev nD) (P : Fin 602112) (j : Fin 128) : padded m c (ix2 P j) = rowOut m c P j := rfl

/-- WHAT POINT t WRITES BACK is block t of the padded output. -/
theorem flushed_eq (c : Dev nD) (t : Fin cfg0.N) :
    (dats m 0 c).flushed 9 t = ((cfg0.win 9).blk t).view.read (Elt Ideal) (padded m c) := by
  show (cfg0.win 9).cut (grid0.coords t) ((dats m 0 c).after 9 t) = _
  rw [after0_9]
  unfold out0_9
  rw [View.canon_unit_zero hz]
  simp only [View.ld_unit_zero (S := S4096x128) hz, View.ld_unit_zero (S := S128x128) hz, View.ld_unit_zero (S := S1x128) hz]
  obtain ⟨-, -, -, -, -, -, -, -, -, e0, e1⟩ := idx_facts t
  have hN : t.val < 147 := lt_of_lt_of_eq t.isLt N_0
  show (k0_pay1 (F := Ideal) (iblk m c 0 t) (iblk m c 1 t) (iblk m c 2 t) (iblk m c 3 t) (iblk m c 4 t) (iblk m c 5 t)
      (iblk m c 6 t) (iblk m c 7 t) (iblk m c 8 t) : S4096x128.Idx → EReal)
    = fun y : S4096x128.Idx => padded m c (((cfg0.win 9).blk t).view.emb y)
  funext y
  obtain ⟨p, j, rfl⟩ : ∃ (p : Fin 4096) (j : Fin 128), y = ix2 p j := ⟨y 0, y 1, eq_ix2 y⟩
  have hp : p.val < 4096 := p.isLt
  have hemb : ((cfg0.win 9).blk t).view.emb (ix2 p j) = ix2 (⟨4096 * t.val + p.val, by omega⟩ : Fin 602112) j := by
    funext ax; apply Fin.ext
    match ax with
    | ⟨0, _⟩ => show win0_9.index t (0 : Fin 2) * 4096 + 1 * p.val = 4096 * t.val + p.val; rw [e0]; omega
    | ⟨1, _⟩ => show win0_9.index t (1 : Fin 2) * 128 + 1 * j.val = j.val; rw [e1]; omega
  rw [hemb, padded_apply]
  refine (Cert.EdgeNet.Body.pay_apply (iblk m c 0 t) (iblk m c 1 t) (iblk m c 2 t) (iblk m c 3 t) (iblk m c 4 t) (iblk m c 5 t)
    (iblk m c 6 t) (iblk m c 7 t) (iblk m c 8 t) p j).trans ?_
  unfold rowOut
  rw [funext fun a => rows0 m c t p a ⟨4096 * t.val + p.val, by omega⟩ rfl,
    funext fun a => rows1 m c t p a ⟨4096 * t.val + p.val, by omega⟩ rfl,
    funext fun a => rows2 m c t p a ⟨4096 * t.val + p.val, by omega⟩ rfl,
    funext fun a => funext fun k => whole3 m c t a k, funext fun a => funext fun k => whole4 m c t a k,
    funext fun a => funext fun k => whole5 m c t a k, funext fun k => whole6 m c t (0 : Fin 1) k,
    funext fun k => funext fun j => whole7 m c t k j, funext fun j => whole8 m c t (0 : Fin 1) j]

/-- An index of the padded output is in point t's block iff each coordinate is in the block's range on its axis. -/
theorem mem_blk (t : Fin cfg0.N) (i : S602112x128.Idx) :
    i ∈ ((cfg0.win 9).blk t).view.set ↔ ∀ a : Fin 2, win0_9.index t a * S4096x128.size a ≤ (i a).val ∧ (i a).val < win0_9.index t a * S4096x128.size a + S4096x128.size a := by
  show i ∈ ((View.whole main_v48).slice (win0_9.rect t)).set ↔ _
  rw [View.set_slice_whole, Rect.mem_set_unit]
  exact Iff.rfl

/-- The 147 blocks of 4096 rows tile the 602112 rows: row P is in the block of point P / 4096. -/
theorem cover (i : S602112x128.Idx) : ∃ t : Fin cfg0.N, (cfg0.win 9).flush t = true ∧ i ∈ ((cfg0.win 9).blk t).view.set := by
  have hi0 : (i 0).val < 602112 := (i 0).isLt
  have hi1 : (i 1).val < 128 := (i 1).isLt
  have hlt : (i 0).val / 4096 < cfg0.N := by rw [show cfg0.N = 147 from N_0]; omega
  obtain ⟨-, -, -, -, -, -, -, -, -, e0, e1⟩ := idx_facts ⟨(i 0).val / 4096, hlt⟩
  refine ⟨⟨(i 0).val / 4096, hlt⟩, flush0_9 _, ?_⟩
  rw [mem_blk]
  intro a
  match a with
  | ⟨0, _⟩ =>
    show win0_9.index ⟨(i 0).val / 4096, hlt⟩ (0 : Fin 2) * 4096 ≤ (i 0).val ∧ (i 0).val < win0_9.index ⟨(i 0).val / 4096, hlt⟩ (0 : Fin 2) * 4096 + 4096
    rw [e0]; show (i 0).val / 4096 * 4096 ≤ (i 0).val ∧ (i 0).val < (i 0).val / 4096 * 4096 + 4096; omega
  | ⟨1, _⟩ =>
    show win0_9.index ⟨(i 0).val / 4096, hlt⟩ (1 : Fin 2) * 128 ≤ (i 1).val ∧ (i 1).val < win0_9.index ⟨(i 0).val / 4096, hlt⟩ (1 : Fin 2) * 128 + 128
    rw [e1]; omega

/-- THE ARRAY after the run: the padded output. -/
theorem final (c : Dev nD) : (dats m 0 c).arrAt 9 cfg0.N = padded m c :=
  (dats m 0 c).arrAt_eq_of_cover 9 (padded m c) (fun t _ => flushed_eq m c t) (cover)

end Cert.EdgeNet.Blocks

end
-- ==== Proof.RefRead.lean ====
/-
  The reference's last stage read at one entry.

  For edge `p` and output `j` the reference forms the row of 384 entries that joins the sender row, the receiver
  row and the edge's own row, multiplies it by the 384 × 128 matrix, adds the first bias, clamps at zero from below,
  multiplies the 128 hidden values by the 128 × 128 matrix and adds the second bias.  Read at `(p, j)` this is the
  one-product form of one edge's output; splitting the sum over 384 into its three blocks of 128 and reading the
  joined row block by block gives the three-block form over the three feature rows.
-/
import proofs.«151119_j17703855194353_1_alg».proof.Proof.Gen.ReferenceIdeal.Read
import proofs.«151119_j17703855194353_1_alg».proof.Proof.Spec
import Idealize.ShloMosaic.Lib.ValueIdx
import Idealize.ShloMosaic.Lib.Pipeline.Value

noncomputable section
open scoped BigOperators
open Idealize.ShloMosaic Idealize.ShloMosaic.ValueIdx Idealize.ShloMosaic.TcCoe Idealize.SL.Sem

namespace Cert.EdgeNet.RefSide
open Cert.ReferenceIdeal Cert.ReferenceIdeal.Gen Cert.ReferenceIdeal.Read

/-- The joined row at a column of the first block is the sender row at that column. -/
theorem cat_blk0
    (a0 : (⟨S200000x128, .f32⟩ : BufTy).Contents (Elt Ideal)) (a1 : (⟨S600000x128, .f32⟩ : BufTy).Contents (Elt Ideal))
    (a6 a7 : (⟨S1200000, .i32⟩ : BufTy).Contents (Elt Ideal)) (a8 : (⟨S2x600000, .i32⟩ : BufTy).Contents (Elt Ideal))
    (p : Fin 600000) (a : Fin 128) :
    val_main_v33 (F := Ideal) a0 a1 a6 a7 a8 (ix2 p (Cert.EdgeNet.blk0 a))
      = val_main_v23 (F := Ideal) a0 a6 a7 a8 (ix2 p a) := by
  unfold val_main_v33
  generalize val_main_v23 (F := Ideal) a0 a6 a7 a8 = s
  generalize val_main_v32 (F := Ideal) a0 a6 a7 a8 = r
  exact concatenate_apply_piece (1 : Fin S600000x384.rank) _ _ (ix2 p (Cert.EdgeNet.blk0 a)) 0 (by show (0 : Nat) < 3; decide) S600000x128 s rfl rfl 0 rfl
    (ix2 p a) (fun b hb => by
      match b with
      | ⟨0, _⟩ => rfl
      | ⟨1, _⟩ => exact absurd rfl hb)
    (Nat.zero_add _)

/-- The joined row at a column of the second block is the receiver row at that column. -/
theorem cat_blk1
    (a0 : (⟨S200000x128, .f32⟩ : BufTy).Contents (Elt Ideal)) (a1 : (⟨S600000x128, .f32⟩ : BufTy).Contents (Elt Ideal))
    (a6 a7 : (⟨S1200000, .i32⟩ : BufTy).Contents (Elt Ideal)) (a8 : (⟨S2x600000, .i32⟩ : BufTy).Contents (Elt Ideal))
    (p : Fin 600000) (a : Fin 128) :
    val_main_v33 (F := Ideal) a0 a1 a6 a7 a8 (ix2 p (Cert.EdgeNet.blk1 a))
      = val_main_v32 (F := Ideal) a0 a6 a7 a8 (ix2 p a) := by
  unfold val_main_v33
  generalize val_main_v23 (F := Ideal) a0 a6 a7 a8 = s
  generalize val_main_v32 (F := Ideal) a0 a6 a7 a8 = r
  exact concatenate_apply_piece (1 : Fin S600000x384.rank) _ _ (ix2 p (Cert.EdgeNet.blk1 a)) 1 (by show (1 : Nat) < 3; decide) S600000x128 r rfl rfl 128 rfl
    (ix2 p a) (fun b hb => by
      match b with
      | ⟨0, _⟩ => rfl
      | ⟨1, _⟩ => exact absurd rfl hb)
    rfl

/-- The joined row at a column of the third block is the edge's own row at that column. -/
theorem cat_blk2
    (a0 : (⟨S200000x128, .f32⟩ : BufTy).Contents (Elt Ideal)) (a1 : (⟨S600000x128, .f32⟩ : BufTy).Contents (Elt Ideal))
    (a6 a7 : (⟨S1200000, .i32⟩ : BufTy).Contents (Elt Ideal)) (a8 : (⟨S2x600000, .i32⟩ : BufTy).Contents (Elt Ideal))
    (p : Fin 600000) (a : Fin 128) :
    val_main_v33 (F := Ideal) a0 a1 a6 a7 a8 (ix2 p (Cert.EdgeNet.blk2 a))
      = a1 (ix2 p a) := by
  unfold val_main_v33
  generalize val_main_v23 (F := Ideal) a0 a6 a7 a8 = s
  generalize val_main_v32 (F := Ideal) a0 a6 a7 a8 = r
  exact concatenate_apply_piece (1 : Fin S600000x384.rank) _ _ (ix2 p (Cert.EdgeNet.blk2 a)) 2 (by show (2 : Nat) < 3; decide) S600000x128 a1 rfl rfl 256 rfl
    (ix2 p a) (fun b hb => by
      match b with
      | ⟨0, _⟩ => rfl
      | ⟨1, _⟩ => exact absurd rfl hb)
    rfl

/-- **The reference's last stage at entry `(p, j)`**: the second layer applied to the clamped first layer, the first
    layer's product taken block by block over the sender row, the receiver row and the edge's own row. -/
theorem ref_apply
    (a0 : (⟨S200000x128, .f32⟩ : BufTy).Contents (Elt Ideal)) (a1 : (⟨S600000x128, .f32⟩ : BufTy).Contents (Elt Ideal))
    (a2 : (⟨S384x128, .f32⟩ : BufTy).Contents (Elt Ideal)) (a3 : (⟨S128, .f32⟩ : BufTy).Contents (Elt Ideal))
    (a4 : (⟨S128x128, .f32⟩ : BufTy).Contents (Elt Ideal)) (a5 : (⟨S128, .f32⟩ : BufTy).Contents (Elt Ideal))
    (a6 a7 : (⟨S1200000, .i32⟩ : BufTy).Contents (Elt Ideal)) (a8 : (⟨S2x600000, .i32⟩ : BufTy).Contents (Elt Ideal))
    (p : Fin 600000) (j : Fin 128) :
    val_main_v42 (F := Ideal) a0 a1 a2 a3 a4 a5 a6 a7 a8 (ix2 p j)
      = Cert.EdgeNet.edgeOut3
          (fun a => val_main_v23 (F := Ideal) a0 a6 a7 a8 (ix2 p a))
          (fun a => val_main_v32 (F := Ideal) a0 a6 a7 a8 (ix2 p a))
          (fun a => a1 (ix2 p a))
          (fun a k => a2 (ix2 (Cert.EdgeNet.blk0 a) k)) (fun a k => a2 (ix2 (Cert.EdgeNet.blk1 a) k)) (fun a k => a2 (ix2 (Cert.EdgeNet.blk2 a) k))
          (fun k => a3 (ix1 k)) (fun k j => a4 (ix2 k j)) (fun j => a5 (ix1 j)) j := by
  -- the index maps of the two products and of the two bias broadcasts, at literal coordinates
  have hl39 : ∀ k : Fin 128, lidx_main_v39 (ix2 p j) k = ix2 p k := fun k =>
    funext fun a => Fin.ext (by match a with | ⟨0, _⟩ => rfl | ⟨1, _⟩ => rfl)
  have hr39 : ∀ k : Fin 128, ridx_main_v39 (ix2 p j) k = ix2 k j := fun k =>
    funext fun a => Fin.ext (by match a with | ⟨0, _⟩ => rfl | ⟨1, _⟩ => rfl)
  have hl34 : ∀ (k : Fin 128) (a : Fin 384), lidx_main_v34 (ix2 p k) a = ix2 p a := fun k a =>
    funext fun d => Fin.ext (by match d with | ⟨0, _⟩ => rfl | ⟨1, _⟩ => rfl)
  have hr34 : ∀ (k : Fin 128) (a : Fin 384), ridx_main_v34 (ix2 p k) a = ix2 a k := fun k a =>
    funext fun d => Fin.ext (by match d with | ⟨0, _⟩ => rfl | ⟨1, _⟩ => rfl)
  have h41 : idx_main_v40 (idx_main_v41 (ix2 p j)) = ix1 j :=
    funext fun d => Fin.ext (by match d with | ⟨0, _⟩ => rfl)
  have h36 : ∀ k : Fin 128, idx_main_v35 (idx_main_v36 (ix2 p k)) = ix1 k := fun k =>
    funext fun d => Fin.ext (by match d with | ⟨0, _⟩ => rfl)
  -- the stage is the one-product form over the joined row
  refine (?_ : _ = Cert.EdgeNet.edgeOutCat (fun a => val_main_v33 (F := Ideal) a0 a1 a6 a7 a8 (ix2 p a))
      (fun a k => a2 (ix2 a k)) (fun k => a3 (ix1 k)) (fun k j => a4 (ix2 k j)) (fun j => a5 (ix1 j)) j).trans ?_
  · rw [val_main_v42_apply, val_main_v39_apply, val_main_v41_apply, val_main_v40_apply, h41, Ideal.addf_def]
    unfold Cert.EdgeNet.edgeOutCat
    refine congrArg (· + a5 (ix1 j)) (Finset.sum_congr rfl fun k _ => ?_)
    rw [hl39, hr39, val_main_v38_apply, val_main_v37_apply, val_main_v34_apply, val_main_v36_apply, val_main_v35_apply,
      h36, val_main_call0_v0_apply, val_main_call0_cst_apply, Ideal.maximumf_def, Ideal.addf_def, Ideal.ofBits_def]
    refine congrArg (fun t => max (t + a3 (ix1 k)) Cert.EdgeNet.zeroWord * a4 (ix2 k j)) (Finset.sum_congr rfl fun a _ => ?_)
    rw [hl34, hr34]
  -- the one-product form is the three-block form; the joined row block by block is the three feature rows
  · rw [Cert.EdgeNet.edgeOutCat_eq]
    simp only [cat_blk0, cat_blk1, cat_blk2]

end Cert.EdgeNet.RefSide

end
-- ==== Proof.LibTypedRef.lean ====
/-
  Typed references: contents moved to the buffer's type and back.

  A called function's operations are printed over TYPED references (`StableHlo.TRef sig T`): a buffer together with the
  fact that its type is `T`.  Such an operation reads its operands through `TRef.ofBuf` (the buffer's contents as
  contents of type `T`) and writes its result through `TRef.toBuf` (the other way), both transports along that fact.  So
  a fold over such operations (`StableHlo.after`), once rewritten to the operations' functions, carries a pair
  `ofBuf (toBuf v)` around every intermediate value.  The two lemmas cancel the pairs, for any reference signature and any
  value family; with them as `simp only` lemmas the fold's term becomes the plain composition of the operations'
  functions, which a definitional comparison with a staged definition of the same value then closes quickly.  (Without
  them the comparison has to see through every transport, and on a term holding a reduction or a gather it unfolds
  those first.)
-/
import Idealize.ShloMosaic.Lib.StableHlo

namespace Idealize.ShloMosaic.StableHlo.TRef

variable {sig : RefSig} {Val : EltTy → Type} {T : BufTy}

/-- Contents moved to a typed reference's buffer type and back are unchanged. -/
theorem ofBuf_toBuf (x : TRef sig T) (v : T.Contents Val) : x.ofBuf (x.toBuf v) = v := by
  obtain ⟨r, rfl, _, _⟩ := x
  rfl

/-- A buffer's contents read at the reference's type and moved back are unchanged. -/
theorem toBuf_ofBuf (x : TRef sig T) (u : x.ref.ty.Contents Val) : x.toBuf (x.ofBuf u) = u := by
  obtain ⟨r, rfl, _, _⟩ := x
  rfl

end Idealize.ShloMosaic.StableHlo.TRef
-- ==== Proof.LibFold.lean ====
/-
  A line of host operations run in two stretches.

  `StableHlo.after ops V` is the valuation after the operations `ops`, applied in order to the valuation `V`.  Running
  a concatenation is running the first stretch and then the second from what the first leaves.  With it a long
  prefix of host operations can be read stage by stage: a later stretch's result as a function of what the earlier
  stretches left at its operands, each operand then read in its own smaller stretch — instead of one composed term in
  which a value used several times is written out once per use.
-/
import Idealize.ShloMosaic.Lib.StableHlo.Run

namespace Idealize.ShloMosaic.StableHlo

variable {τ : Topo} {sig : RefSig} {Val : EltTy → Type}

/-- The valuation after two stretches run one after the other. -/
theorem after_append (l₁ l₂ : List (HloOp τ sig Val)) (V : Valuation τ sig Val) :
    after (l₁ ++ l₂) V = after l₂ (after l₁ V) := by
  induction l₁ generalizing V with
  | nil => rfl
  | cons op ops ih => exact ih (op.result V)

end Idealize.ShloMosaic.StableHlo
-- ==== Proof.LibRowVector.lean ====
/-
  A vector laid out as a row. Reshaping a vector of n entries to a [1, n] array and broadcasting it to a [1, n] array
  along the second axis give the same array: entry (0, j) of either is entry j of the vector.
-/
import Idealize.ShloMosaic.Lib.Pipeline.Value
import Idealize.ShloMosaic.Lib.ValueIdx

noncomputable section

namespace Cert.RowVector

open Idealize.ShloMosaic

variable {α : Type} {n : ℕ}

/-- The reshape of a vector to a row, read at an entry: the vector at the entry's column. -/
theorem reshape_apply (x : (⟨1, ![n]⟩ : Shape).Idx → α) (h : (⟨1, ![n]⟩ : Shape).ShapeCasts ⟨2, ![1, n]⟩)
    (j : (⟨2, ![1, n]⟩ : Shape).Idx) : shapeCast ⟨2, ![1, n]⟩ x h j = x (fun a => j a.succ) :=
  shapeCast_addUnit_apply ![n] x h j

/-- The broadcast of a vector to a row along the second axis, read at an entry: the vector at the entry's column. -/
theorem broadcast_apply (x : (⟨1, ![n]⟩ : Shape).Idx → α) (h : (⟨1, ![n]⟩ : Shape).BroadcastsInDim ⟨2, ![1, n]⟩ ![1])
    (j : (⟨2, ![1, n]⟩ : Shape).Idx) : broadcastInDim ⟨2, ![1, n]⟩ ![1] h x j = x (fun a => j a.succ) := by
  refine broadcastInDim_apply ![1] h x j (fun a => j a.succ) (fun a => ?_)
  match a with
  | ⟨0, _⟩ =>
    show (j 1).val = if n = 1 then 0 else (j 1).val
    by_cases h1 : n = 1
    · rw [if_pos h1]
      have hlt : (j 1).val < n := (j 1).isLt
      omega
    · rw [if_neg h1]

/-- The two layouts are one array. -/
theorem reshape_eq_broadcast (x : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ x h = broadcastInDim ⟨2, ![1, n]⟩ ![1] hb x :=
  funext fun j => (reshape_apply x h j).trans (broadcast_apply x hb j).symm

end Cert.RowVector

end
-- ==== Proof.HostPrefix.lean ====
/-
  The arrays the kernel's region finds, read at an entry.

  Before its grid the kernel's program prepares ten arrays on the host.  The sender rows and the masked receiver rows
  come out of the same gathers and segment sum, on the same arguments, as in the reference, and are carried as the
  reference's own stages of the argument arrays, never opened; they and the edge features then change number format —
  the identity on extended reals — and are padded with 2112 zero rows, so below row 600000 each padded array is its
  operand.  The first matrix is cut into its three blocks of 128 rows, the second matrix is copied, and the two bias
  vectors are laid out as rows.
-/
import proofs.«151119_j17703855194353_1_alg».proof.Proof.Gen.KernelIdeal.Frame
import proofs.«151119_j17703855194353_1_alg».proof.Proof.Gen.ReferenceIdeal.Read
import proofs.«151119_j17703855194353_1_alg».proof.Proof.Spec
import proofs.«151119_j17703855194353_1_alg».proof.Proof.LibTypedRef
import proofs.«151119_j17703855194353_1_alg».proof.Proof.LibFold
import proofs.«151119_j17703855194353_1_alg».proof.Proof.LibRowVector
import Idealize.ShloMosaic.Lib.ValueIdx
import Idealize.ShloMosaic.Lib.Pipeline.Value
import Idealize.ShloMosaic.Lib.StableHlo.Run

noncomputable section
open Idealize.ShloMosaic Idealize.ShloMosaic.ValueIdx Idealize.ShloMosaic.TcCoe Idealize.SL.Sem

namespace Cert.EdgeNet.HostSide
open Cert.KernelIdeal Cert.KernelIdeal.Gen

variable (m : (ℓ : Loc nD τ sig) → Buf (Elt Ideal) ℓ) (c : Dev nD)

/-! ## Layout operations read at an entry -/

/-- A block of 128 rows cut from a 384-row matrix at row offset `o`, read at entry `(a, k)`: the matrix at
    `(o + a, k)`. -/
theorem rows_slice_apply (o : Nat) (X : FVec Ideal S384x128 .f32) (h : S384x128.Slices ![o, 0] S128x128)
    (a k : Fin 128) (r : Fin 384) (hr : r.val = o + a.val) :
    extractStridedSlice S128x128 ![o, 0] X h (ix2 a k) = X (ix2 r k) :=
  extractStridedSlice_apply _ X h (ix2 a k) (ix2 r k) (fun ax => match ax with
    | ⟨0, _⟩ => by show r.val = o + a.val; exact hr
    | ⟨1, _⟩ => by show k.val = 0 + k.val; omega)

/-- A vector of 128 entries laid out as a row, read at entry `(u, k)`: the vector at `k`. -/
theorem row_apply (x : FVec Ideal S128 .f32) (h : S128.ShapeCasts S1x128) (u : Fin 1) (k : Fin 128) :
    shapeCast S1x128 x h (ix2 u k) = x (ix1 k) :=
  (Cert.RowVector.reshape_apply (n := 128) x h (ix2 u k)).trans
    (congrArg x (funext fun d => match d with | ⟨0, _⟩ => rfl))

/-! ## The weights and biases as the region finds them

Each is written by the last stretch of host operations from an argument array that no host operation writes: a block
of 128 rows of the first matrix, the second matrix, or a bias vector laid out as a row.  The change of number format
in between is the identity on extended reals. -/

open Idealize.ShloMosaic.StableHlo in
/-- The first block of the first matrix, as an array. -/
theorem V_v40_eq : @Eq (FVec Ideal S128x128 .bf16) (V (F := Ideal) m c main_v40)
    (truncf .bf16 (extractStridedSlice S128x128 ![0, 0] (m ((c.tc : Thread nD τ).loc main_arg2) : FVec Ideal S384x128 .f32)
      slices_S384x128_S128x128_0_0) bitsLt_bf16_f32) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

open Idealize.ShloMosaic.StableHlo in
/-- The second block of the first matrix, as an array. -/
theorem V_v42_eq : @Eq (FVec Ideal S128x128 .bf16) (V (F := Ideal) m c main_v42)
    (truncf .bf16 (extractStridedSlice S128x128 ![128, 0] (m ((c.tc : Thread nD τ).loc main_arg2) : FVec Ideal S384x128 .f32)
      slices_S384x128_S128x128_128_0) bitsLt_bf16_f32) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

open Idealize.ShloMosaic.StableHlo in
/-- The third block of the first matrix, as an array. -/
theorem V_v44_eq : @Eq (FVec Ideal S128x128 .bf16) (V (F := Ideal) m c main_v44)
    (truncf .bf16 (extractStridedSlice S128x128 ![256, 0] (m ((c.tc : Thread nD τ).loc main_arg2) : FVec Ideal S384x128 .f32)
      slices_S384x128_S128x128_256_0) bitsLt_bf16_f32) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

open Idealize.ShloMosaic.StableHlo in
/-- The second matrix, as an array. -/
theorem V_v45_eq : @Eq (FVec Ideal S128x128 .bf16) (V (F := Ideal) m c main_v45)
    (truncf .bf16 (m ((c.tc : Thread nD τ).loc main_arg4) : FVec Ideal S128x128 .f32) bitsLt_bf16_f32) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

open Idealize.ShloMosaic.StableHlo in
/-- The first bias as a row. -/
theorem V_v46_eq : @Eq (FVec Ideal S1x128 .f32) (V (F := Ideal) m c main_v46)
    (shapeCast S1x128 (m ((c.tc : Thread nD τ).loc main_arg3) : FVec Ideal S128 .f32) shapeCasts_S128_S1x128) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

open Idealize.ShloMosaic.StableHlo in
/-- The second bias as a row. -/
theorem V_v47_eq : @Eq (FVec Ideal S1x128 .f32) (V (F := Ideal) m c main_v47)
    (shapeCast S1x128 (m ((c.tc : Thread nD τ).loc main_arg5) : FVec Ideal S128 .f32) shapeCasts_S128_S1x128) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

/-- Entry `(a, k)` of the first block of the first matrix. -/
theorem V_v40_apply (a k : Fin 128) :
    V (F := Ideal) m c main_v40 (ix2 a k) = m ((c.tc : Thread nD τ).loc main_arg2) (ix2 (Cert.EdgeNet.blk0 a) k) :=
  (congrFun (V_v40_eq m c) (ix2 a k)).trans
    ((truncf_apply _ bitsLt_bf16_f32 (ix2 a k)).trans
      (rows_slice_apply 0 _ slices_S384x128_S128x128_0_0 a k (Cert.EdgeNet.blk0 a) (by show a.val = 0 + a.val; omega)))

/-- Entry `(a, k)` of the second block of the first matrix. -/
theorem V_v42_apply (a k : Fin 128) :
    V (F := Ideal) m c main_v42 (ix2 a k) = m ((c.tc : Thread nD τ).loc main_arg2) (ix2 (Cert.EdgeNet.blk1 a) k) :=
  (congrFun (V_v42_eq m c) (ix2 a k)).trans
    ((truncf_apply _ bitsLt_bf16_f32 (ix2 a k)).trans
      (rows_slice_apply 128 _ slices_S384x128_S128x128_128_0 a k (Cert.EdgeNet.blk1 a) rfl))

/-- Entry `(a, k)` of the third block of the first matrix. -/
theorem V_v44_apply (a k : Fin 128) :
    V (F := Ideal) m c main_v44 (ix2 a k) = m ((c.tc : Thread nD τ).loc main_arg2) (ix2 (Cert.EdgeNet.blk2 a) k) :=
  (congrFun (V_v44_eq m c) (ix2 a k)).trans
    ((truncf_apply _ bitsLt_bf16_f32 (ix2 a k)).trans
      (rows_slice_apply 256 _ slices_S384x128_S128x128_256_0 a k (Cert.EdgeNet.blk2 a) rfl))

/-- Entry `(k, j)` of the second matrix. -/
theorem V_v45_apply (k j : Fin 128) :
    V (F := Ideal) m c main_v45 (ix2 k j) = m ((c.tc : Thread nD τ).loc main_arg4) (ix2 k j) :=
  (congrFun (V_v45_eq m c) (ix2 k j)).trans (truncf_apply _ bitsLt_bf16_f32 (ix2 k j))

/-- Entry `k` of the first bias, read in its row. -/
theorem V_v46_apply (u : Fin 1) (k : Fin 128) :
    V (F := Ideal) m c main_v46 (ix2 u k) = m ((c.tc : Thread nD τ).loc main_arg3) (ix1 k) :=
  (congrFun (V_v46_eq m c) (ix2 u k)).trans (row_apply _ shapeCasts_S128_S1x128 u k)

/-- Entry `k` of the second bias, read in its row. -/
theorem V_v47_apply (u : Fin 1) (k : Fin 128) :
    V (F := Ideal) m c main_v47 (ix2 u k) = m ((c.tc : Thread nD τ).loc main_arg5) (ix1 k) :=
  (congrFun (V_v47_eq m c) (ix2 u k)).trans (row_apply _ shapeCasts_S128_S1x128 u k)

/-! ## A padded array read below the padding -/

/-- An array of 600000 rows padded with 2112 further rows, read at a row below 600000: the array there. -/
theorem pad_rows_apply (x : FVec Ideal S600000x128 .bf16) (v : FVec Ideal S_ .bf16)
    (h : S600000x128.Pads (![0, 0] : Fin 2 → Nat) ![2112, 0] ![0, 0] S602112x128) (hu : 0 < S_.numel)
    (P : Fin 602112) (hP : P.val < 600000) (a : Fin 128) :
    pad S602112x128 ![0, 0] ![2112, 0] ![0, 0] x v h hu (ix2 P a) = x (ix2 (⟨P.val, hP⟩ : Fin 600000) a) := by
  unfold pad
  have hin : ∀ ax : Fin S600000x128.rank, (![0, 0] : Fin 2 → Nat) ax ≤ ((ix2 P a : S602112x128.Idx) (ax.cast h.1)).val
      ∧ (((ix2 P a : S602112x128.Idx) (ax.cast h.1)).val - (![0, 0] : Fin 2 → Nat) ax) % ((![0, 0] : Fin 2 → Nat) ax + 1) = 0
      ∧ (((ix2 P a : S602112x128.Idx) (ax.cast h.1)).val - (![0, 0] : Fin 2 → Nat) ax) / ((![0, 0] : Fin 2 → Nat) ax + 1) < S600000x128.size ax :=
    fun ax => match ax with
      | ⟨0, _⟩ => by
        show 0 ≤ P.val ∧ (P.val - 0) % (0 + 1) = 0 ∧ (P.val - 0) / (0 + 1) < 600000
        omega
      | ⟨1, _⟩ => by
        show 0 ≤ a.val ∧ (a.val - 0) % (0 + 1) = 0 ∧ (a.val - 0) / (0 + 1) < 128
        have := a.isLt
        omega
  rw [dif_pos hin]
  exact congrArg x (funext fun ax => match ax with
    | ⟨0, _⟩ => Fin.ext (by show (P.val - 0) / (0 + 1) = P.val; omega)
    | ⟨1, _⟩ => Fin.ext (by show (a.val - 0) / (0 + 1) = a.val; omega))

/-! ## The edge features, padded -/

open Idealize.ShloMosaic.StableHlo in
/-- The padded edge features, as an array: the edge-feature argument, its number format changed, padded with the
    zero of that format. -/
theorem V_v38_eq : @Eq (FVec Ideal S602112x128 .bf16) (V (F := Ideal) m c main_v38)
    (pad S602112x128 ![0, 0] ![2112, 0] ![0, 0]
      (truncf .bf16 (m ((c.tc : Thread nD τ).loc main_arg1) : FVec Ideal S600000x128 .f32) bitsLt_bf16_f32)
      (sitofp (F := Ideal) .bf16 (constantI S_ 32 0#32)) pads_S600000x128_S602112x128_021120_000 h_S_) := by
  dsimp only [V, V0]
  simp only [hostOps0, hostOps0_1, hostOps0_2, hostOps0_3, hostOps0_4, hostOps0_5, hostOps0_6, List.flatten_cons, List.flatten_nil, List.append_nil, List.cons_append, List.nil_append]
  after_results_simp <;> rfl

/-- Entry `(P, a)` of the padded edge features, `P` below the padding. -/
theorem V_v38_apply (P : Fin 602112) (hP : P.val < 600000) (a : Fin 128) :
    V (F := Ideal) m c main_v38 (ix2 P a) = m ((c.tc : Thread nD τ).loc main_arg1) (ix2 (⟨P.val, hP⟩ : Fin 600000) a) :=
  (congrFun (V_v38_eq m c) (ix2 P a)).trans
    ((pad_rows_apply _ _ pads_S600000x128_S602112x128_021120_000 h_S_ P hP a).trans
      (truncf_apply _ bitsLt_bf16_f32 _))

/-! ## The sender and receiver rows, padded

Both are gathered from the per-cell sums by the first 42 host operations — the same operations, on the same
arguments, as the reference's first stages — and then change number format and are padded.  The line of host operations
is read in two stretches: what the later stretches do to whatever the first leaves (the format change and the padding,
through a called function's typed references), and what the first leaves (the reference's stages of the argument
arrays, as whole arrays). -/

section SharedPrefix
open Idealize.ShloMosaic.StableHlo

/-- The host operations before the region run in two stretches: the first 42, then the rest from what those leave. -/
theorem V_split (r : Ref sig .tc) :
    V (F := Ideal) m c r
      = after (List.flatten [hostOps0_1, hostOps0_2, hostOps0_3, hostOps0_4, hostOps0_5, hostOps0_6])
          (after hostOps0 (fun b => m (c, b))) (Proc.devRef .tc r) := by
  dsimp only [V, V0]
  rw [List.flatten_cons, after_append]

/-- The padded sender rows from what the first stretch leaves: its last format change, padded with the zero of the
    narrow format. -/
theorem tail_v34 (W : Valuation τ sig (Elt Ideal)) :
    @Eq (FVec Ideal S602112x128 .bf16)
      (after (List.flatten [hostOps0_1, hostOps0_2, hostOps0_3, hostOps0_4, hostOps0_5, hostOps0_6]) W (Proc.devRef .tc main_v34))
      (pad S602112x128 ![0, 0] ![2112, 0] ![0, 0] (W (Proc.devRef .tc main_v33) : FVec Ideal S600000x128 .bf16)
        (sitofp (F := Ideal) .bf16 (W (Proc.devRef .tc main_c_5) : IVec S_ 32)) pads_S600000x128_S602112x128_021120_000 h_S_) := by
  simp only [hostOps0_1, hostOps0_2, hostOps0_3, hostOps0_4, hostOps0_5, hostOps0_6, List.flatten_cons, List.flatten_nil, List.append_nil, List.cons_append, List.nil_append]
  after_results_simp
  simp only [TRef.ofBuf_toBuf]
  rfl

/-- The padded receiver rows from what the first stretch leaves: the masked receiver rows, their format changed, padded
    with the zero of the narrow format. -/
theorem tail_v36 (W : Valuation τ sig (Elt Ideal)) :
    @Eq (FVec Ideal S602112x128 .bf16)
      (after (List.flatten [hostOps0_1, hostOps0_2, hostOps0_3, hostOps0_4, hostOps0_5, hostOps0_6]) W (Proc.devRef .tc main_v36))
      (pad S602112x128 ![0, 0] ![2112, 0] ![0, 0]
        (truncf .bf16 (W (Proc.devRef .tc main_v32) : FVec Ideal S600000x128 .f32) bitsLt_bf16_f32)
        (sitofp (F := Ideal) .bf16 (constantI S_ 32 0#32)) pads_S600000x128_S602112x128_021120_000 h_S_) := by
  simp only [hostOps0_1, hostOps0_2, hostOps0_3, hostOps0_4, hostOps0_5, hostOps0_6, List.flatten_cons, List.flatten_nil, List.append_nil, List.cons_append, List.nil_append]
  after_results_simp
  simp only [TRef.ofBuf_toBuf]
  rfl

/-- The first stretch leaves the integer zero that the padding value is converted from. -/
theorem head_c5 :
    @Eq (IVec S_ 32) (after hostOps0 (fun b => m (c, b)) (Proc.devRef .tc main_c_5)) (constantI S_ 32 0#32) := by
  simp only [hostOps0]
  after_results_simp <;> rfl

/-- The first stretch leaves the sender rows — the reference's stage of the same name, of the kernel's argument
    arrays — with their number format changed. -/
theorem head_v33 :
    @Eq (FVec Ideal S600000x128 .bf16) (after hostOps0 (fun b => m (c, b)) (Proc.devRef .tc main_v33))
      (truncf .bf16 (Cert.ReferenceIdeal.Read.val_main_v23 (F := Ideal) (m ((c.tc : Thread nD τ).loc main_arg0))
          (m ((c.tc : Thread nD τ).loc main_arg6)) (m ((c.tc : Thread nD τ).loc main_arg7))
          (m ((c.tc : Thread nD τ).loc main_arg8)) : FVec Ideal S600000x128 .f32) bitsLt_bf16_f32) := by
  simp only [hostOps0]
  after_results_simp
  rfl

/-- The first stretch leaves the masked receiver rows: the reference's stage of the same name, of the kernel's argument
    arrays. -/
theorem head_v32 :
    @Eq (FVec Ideal S600000x128 .f32) (after hostOps0 (fun b => m (c, b)) (Proc.devRef .tc main_v32))
      (Cert.ReferenceIdeal.Read.val_main_v32 (F := Ideal) (m ((c.tc : Thread nD τ).loc main_arg0))
          (m ((c.tc : Thread nD τ).loc main_arg6)) (m ((c.tc : Thread nD τ).loc main_arg7))
          (m ((c.tc : Thread nD τ).loc main_arg8))) := by
  simp only [hostOps0]
  after_results_simp
  rfl

/-- The padded sender rows, as an array. -/
theorem V_v34_eq : @Eq (FVec Ideal S602112x128 .bf16) (V (F := Ideal) m c main_v34)
    (pad S602112x128 ![0, 0] ![2112, 0] ![0, 0]
      (truncf .bf16 (Cert.ReferenceIdeal.Read.val_main_v23 (F := Ideal) (m ((c.tc : Thread nD τ).loc main_arg0))
          (m ((c.tc : Thread nD τ).loc main_arg6)) (m ((c.tc : Thread nD τ).loc main_arg7))
          (m ((c.tc : Thread nD τ).loc main_arg8)) : FVec Ideal S600000x128 .f32) bitsLt_bf16_f32)
      (sitofp (F := Ideal) .bf16 (constantI S_ 32 0#32)) pads_S600000x128_S602112x128_021120_000 h_S_) :=
  (V_split m c main_v34).trans ((tail_v34 _).trans
    (congrArg₂ (fun (x : FVec Ideal S600000x128 .bf16) (z : IVec S_ 32) =>
        pad S602112x128 ![0, 0] ![2112, 0] ![0, 0] x (sitofp (F := Ideal) .bf16 z) pads_S600000x128_S602112x128_021120_000 h_S_)
      (head_v33 m c) (head_c5 m c)))

/-- The padded receiver rows, as an array. -/
theorem V_v36_eq : @Eq (FVec Ideal S602112x128 .bf16) (V (F := Ideal) m c main_v36)
    (pad S602112x128 ![0, 0] ![2112, 0] ![0, 0]
      (truncf .bf16 (Cert.ReferenceIdeal.Read.val_main_v32 (F := Ideal) (m ((c.tc : Thread nD τ).loc main_arg0))
          (m ((c.tc : Thread nD τ).loc main_arg6)) (m ((c.tc : Thread nD τ).loc main_arg7))
          (m ((c.tc : Thread nD τ).loc main_arg8)) : FVec Ideal S600000x128 .f32) bitsLt_bf16_f32)
      (sitofp (F := Ideal) .bf16 (constantI S_ 32 0#32)) pads_S600000x128_S602112x128_021120_000 h_S_) :=
  (V_split m c main_v36).trans ((tail_v36 _).trans
    (congrArg (fun (x : FVec Ideal S600000x128 .f32) =>
        pad S602112x128 ![0, 0] ![2112, 0] ![0, 0] (truncf .bf16 x bitsLt_bf16_f32)
          (sitofp (F := Ideal) .bf16 (constantI S_ 32 0#32)) pads_S600000x128_S602112x128_021120_000 h_S_)
      (head_v32 m c)))

end SharedPrefix

/-- Entry `(P, a)` of the padded sender rows, `P` below the padding: the reference's sender rows there. -/
theorem V_v34_apply (P : Fin 602112) (hP : P.val < 600000) (a : Fin 128) :
    V (F := Ideal) m c main_v34 (ix2 P a)
      = Cert.ReferenceIdeal.Read.val_main_v23 (F := Ideal) (m ((c.tc : Thread nD τ).loc main_arg0)) (m ((c.tc : Thread nD τ).loc main_arg6))
          (m ((c.tc : Thread nD τ).loc main_arg7)) (m ((c.tc : Thread nD τ).loc main_arg8)) (ix2 (⟨P.val, hP⟩ : Fin 600000) a) :=
  (congrFun (V_v34_eq m c) (ix2 P a)).trans
    ((pad_rows_apply _ _ pads_S600000x128_S602112x128_021120_000 h_S_ P hP a).trans
      (truncf_apply _ bitsLt_bf16_f32 _))

/-- Entry `(P, a)` of the padded receiver rows, `P` below the padding: the reference's masked receiver rows there. -/
theorem V_v36_apply (P : Fin 602112) (hP : P.val < 600000) (a : Fin 128) :
    V (F := Ideal) m c main_v36 (ix2 P a)
      = Cert.ReferenceIdeal.Read.val_main_v32 (F := Ideal) (m ((c.tc : Thread nD τ).loc main_arg0)) (m ((c.tc : Thread nD τ).loc main_arg6))
          (m ((c.tc : Thread nD τ).loc main_arg7)) (m ((c.tc : Thread nD τ).loc main_arg8)) (ix2 (⟨P.val, hP⟩ : Fin 600000) a) :=
  (congrFun (V_v36_eq m c) (ix2 P a)).trans
    ((pad_rows_apply _ _ pads_S600000x128_S602112x128_021120_000 h_S_ P hP a).trans
      (truncf_apply _ bitsLt_bf16_f32 _))

end Cert.EdgeNet.HostSide
end
-- ==== Proof.KernelRun.lean ====
/-
  The kernel's run, read: what its result buffer holds.

  After the 147 grid points the region's output array is the padded output (row P the edge's output from row P of the
  padded feature arrays).  The one host operation after the region keeps rows 0 … 599999.  Below the padding a padded
  feature row is the feature row itself — the sender rows and the receiver rows the two programs share, and the edge
  rows of the argument — and the weight windows hold the three blocks of the first matrix, the second matrix and the
  two biases.  So entry (p, j) of the result is the three-block form of the edge's output, which is the reference's
  last stage at (p, j).
-/
import proofs.«151119_j17703855194353_1_alg».proof.Proof.Gen.KernelIdeal.Frame
import proofs.«151119_j17703855194353_1_alg».proof.Proof.Gen.ReferenceIdeal.Read
import proofs.«151119_j17703855194353_1_alg».proof.Proof.Spec
import proofs.«151119_j17703855194353_1_alg».proof.Proof.Blocks
import proofs.«151119_j17703855194353_1_alg».proof.Proof.RefRead
import proofs.«151119_j17703855194353_1_alg».proof.Proof.HostPrefix
import Idealize.ShloMosaic.Lib.Pipeline.Value
import Idealize.ShloMosaic.Lib.ValueIdx
import Idealize.ShloMosaic.Lib.StableHlo.Run

noncomputable section

namespace Cert.EdgeNet.KernelRun

open Cert.KernelIdeal Cert.KernelIdeal.Gen Cert.KernelIdeal.Facts₀
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg)

/-- The result as a function of the argument arrays: the reference's last stage at the kernel's arguments. -/
abbrev result (c : Dev nD) : Buf (Elt Ideal) ((c.tc : Thread nD τ).loc main_v49) :=
  Cert.ReferenceIdeal.Read.val_main_v42 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

/-- What the region leaves in its output array: the padded output. -/
theorem region_out (c : Dev nD) :
    Pipeline.withArrays (cfgs 0).spec c (V0 m c) (fun w => (dats m 0 c).arrAt w (cfgs 0).N) (Proc.devRef .tc main_v48)
      = Cert.EdgeNet.Blocks.padded m c :=
  (Pipeline.withArrays_arr spec0 launch0.win.arr_inj c _ _ 9).trans (Cert.EdgeNet.Blocks.final m c)

/-- Row p < 600000, column j of the padded output is the reference's last stage at (p, j): below the padding every
    padded feature row is the feature row itself, the weight windows hold the three blocks of the first matrix, the
    second matrix and the two biases, and the three-block form of the first layer is the one-product form. -/
theorem rowOut_eq (c : Dev nD) (p : Fin 600000) (j : Fin 128) :
    Cert.EdgeNet.Blocks.rowOut m c (⟨p.val, by have := p.isLt; omega⟩ : Fin 602112) j = result m c (ix2 p j) := by
  have hp : p.val < 600000 := p.isLt
  unfold Cert.EdgeNet.Blocks.rowOut
  rw [funext fun a => Cert.EdgeNet.HostSide.V_v34_apply m c (⟨p.val, by omega⟩ : Fin 602112) hp a,
    funext fun a => Cert.EdgeNet.HostSide.V_v36_apply m c (⟨p.val, by omega⟩ : Fin 602112) hp a,
    funext fun a => Cert.EdgeNet.HostSide.V_v38_apply m c (⟨p.val, by omega⟩ : Fin 602112) hp a,
    funext fun a => funext fun k => Cert.EdgeNet.HostSide.V_v40_apply m c a k, funext fun a => funext fun k => Cert.EdgeNet.HostSide.V_v42_apply m c a k,
    funext fun a => funext fun k => Cert.EdgeNet.HostSide.V_v44_apply m c a k, funext fun k => Cert.EdgeNet.HostSide.V_v46_apply m c (0 : Fin 1) k,
    funext fun k => funext fun j => Cert.EdgeNet.HostSide.V_v45_apply m c k j, funext fun j => Cert.EdgeNet.HostSide.V_v47_apply m c (0 : Fin 1) j]
  exact (Cert.EdgeNet.RefSide.ref_apply _ _ _ _ _ _ _ _ _ p j).symm

/-- The result buffer after the slice that drops the padding rows. -/
theorem tail_eq (c : Dev nD) :
    (Pipeline.afterTail₀ cfgs (dats m) 0 (V0 m) [hostOps1] c main_v49 : S600000x128.Idx → EReal)
      = extractStridedSlice S600000x128 ![0, 0]
          (Pipeline.withArrays (cfgs 0).spec c (V0 m c) (fun w => (dats m 0 c).arrAt w (cfgs 0).N) (Proc.devRef .tc main_v48))
          Cert.KernelIdeal.Facts₀.slices_S602112x128_S600000x128_0_0 := by
  unfold Pipeline.afterTail₀
  show StableHlo.after hostOps1 _ (Proc.devRef .tc main_v49) = _
  after_results
  all_goals rfl

/-- The result buffer holds the reference's last stage of the argument arrays. -/
theorem kernel_value (c : Dev nD) :
    Pipeline.afterTail₀ cfgs (dats m) 0 (V0 m) [hostOps1] c main_v49 = result m c := by
  refine (tail_eq m c).trans ?_
  rw [region_out]
  show (extractStridedSlice S600000x128 ![0, 0] (Cert.EdgeNet.Blocks.padded m c) Cert.KernelIdeal.Facts₀.slices_S602112x128_S600000x128_0_0 : S600000x128.Idx → EReal) = _
  funext i
  obtain ⟨p, j, rfl⟩ : ∃ (p : Fin 600000) (j : Fin 128), i = ix2 p j := ⟨i 0, i 1, eq_ix2 i⟩
  have hp : p.val < 600000 := p.isLt
  have hk : ∀ a : Fin S602112x128.rank, ((ix2 (⟨p.val, by omega⟩ : Fin 602112) j : S602112x128.Idx) a).val
      = (![0, 0] : Fin 2 → Nat) a + ((ix2 p j : S600000x128.Idx) (a.cast rfl)).val := fun a => by
    match a with
    | ⟨0, _⟩ => show p.val = 0 + p.val; omega
    | ⟨1, _⟩ => show j.val = 0 + j.val; omega
  have e1 := extractStridedSlice_apply (![0, 0] : Fin 2 → Nat) (Cert.EdgeNet.Blocks.padded m c)
    Cert.KernelIdeal.Facts₀.slices_S602112x128_S600000x128_0_0 (ix2 p j) (ix2 (⟨p.val, by omega⟩ : Fin 602112) j) hk
  refine e1.trans ?_
  rw [Cert.EdgeNet.Blocks.padded_apply]
  exact rowOut_eq m c p j

/-- The kernel's run, read: every weakly fair execution terminates with the result buffer at the reference's last
    stage of the argument arrays, and the arguments unchanged. -/
theorem run : θ_run defs (onTc (τ := τ) (main (F := Ideal))) ⟨m, fun _ => 0, ρ⟩ (fun r => ∀ c : Dev nD,
      r.2.mem ((c.tc : Thread nD τ).loc main_v49) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v49 (Pipeline.mem_restRefs_of main_v49 (by decide) (by decide))).trans (kernel_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.EdgeNet.KernelRun

end
-- ==== Proof.lean ====
/-
  The edge network of a mesh: a fused kernel against its plain reference, over the extended reals.

  Both programs first sum node features into cells (a gather of node rows, a segment sum into 400000 cells), gather
  each edge's sender and receiver cell rows, and zero the receiver row of a self-edge.  These operations are the same,
  line for line, in the two programs, so the sender rows and the receiver rows enter the comparison as two arrays that
  are never opened.

  The reference then joins sender, receiver and edge rows into rows of 384 entries, multiplies by the 384 × 128 first
  matrix, adds the first bias, clamps at zero from below, multiplies by the 128 × 128 second matrix and adds the
  second bias.  The kernel pads the three feature arrays with zero rows to a multiple of 4096, cuts the first matrix
  into its three blocks of 128 rows, and in each of 147 grid points computes, for 4096 edges, the three block products
  added up, the bias, the clamp, the second product and the second bias; the padding rows are dropped at the end.
  Over the extended reals a change of float format is the identity, so the only difference is the grouping of the
  first layer's sum: one sum over 384 terms against three sums over 128 terms added left to right.  Addition of
  extended reals is commutative and associative, so the two agree with no assumption on the inputs.

  The result is stated as the reference's own last stage applied to the argument arrays; the kernel's result buffer is
  shown to hold it entry by entry (the body's stored value, the blocks tiling the padded array, the rows below the
  padding, the final slice), and the reference's run ends at it by definition.  The idealization rewrote nothing, so
  the preservation claim is empty.
-/
import proofs.«151119_j17703855194353_1_alg».proof.Defs
import proofs.«151119_j17703855194353_1_alg».proof.Proof.Gen.Kernel
import proofs.«151119_j17703855194353_1_alg».proof.Proof.Gen.Kernel.Skeleton
import proofs.«151119_j17703855194353_1_alg».proof.Proof.Gen.Kernel.Launch
import proofs.«151119_j17703855194353_1_alg».proof.Proof.Gen.Kernel.Points
import proofs.«151119_j17703855194353_1_alg».proof.Proof.Gen.Kernel.Frame
import proofs.«151119_j17703855194353_1_alg».proof.Proof.Gen.KernelIdeal
import proofs.«151119_j17703855194353_1_alg».proof.Proof.Gen.KernelIdeal.Skeleton
import proofs.«151119_j17703855194353_1_alg».proof.Proof.Gen.KernelIdeal.Launch
import proofs.«151119_j17703855194353_1_alg».proof.Proof.Gen.KernelIdeal.Points
import proofs.«151119_j17703855194353_1_alg».proof.Proof.Gen.KernelIdeal.Frame
import proofs.«151119_j17703855194353_1_alg».proof.Proof.Gen.ReferenceIdeal
import proofs.«151119_j17703855194353_1_alg».proof.Proof.Gen.ReferenceIdeal.Run
import proofs.«151119_j17703855194353_1_alg».proof.Proof.Gen.ReferenceIdeal.Read
import proofs.«151119_j17703855194353_1_alg».proof.Proof.Gen.Pre_finite_inputs
import proofs.«151119_j17703855194353_1_alg».proof.Proof.KernelRun
import Idealize.ShloMosaic.Adequacy
import Idealize.ShloMosaic.Init

noncomputable section

namespace Cert.Proof

open Idealize.ShloMosaic Idealize.ShloMosaic.TcCoe Idealize.SL.Sem

/-- The printed kernel runs and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From memories that agree on the arguments both programs end with the reference's last stage of those arguments in
    their result buffers. -/
theorem algebraic : Cert.algebraic_KernelIdeal_ReferenceIdeal := by
  intro m ρ m' ρ' _ hagree
  refine ⟨fun c => Cert.EdgeNet.KernelRun.result m c, Cert.EdgeNet.KernelRun.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v42_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
